-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) (main_arg2 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  main_v13
-- ==== Kernel.lean ====
abbrev S16x4096x64 : Shape := ⟨3, ![16, 4096, 64]⟩
abbrev S16x4096x4096 : Shape := ⟨3, ![16, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x64, .f32⟩
  | .hbm, ⟨4, _⟩ => ⟨S16x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x256x64, .f32⟩
  | .local _ .vmem, ⟨7, _⟩ => ⟨S1x256x64, .f32⟩
  | .local _ .vmem, ⟨8, _⟩ => ⟨S1x256x4096, .f32⟩
  | .local _ .vmem, ⟨9, _⟩ => ⟨S1x256x4096, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x64_S1x256x64 : S256x64.ShapeCasts S1x256x64
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x4096x64.size a
  hwx0_0 : ∀ i : grid0.Coords, EltTy.bits .f32 = 32 ∨ (Rect.block (s := S16x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x4096x64.size a
  hwx0_3 : ∀ i : grid0.Coords, EltTy.bits .f32 = 32 ∨ (Rect.block (s := S16x4096x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S16x4096x4096.size a
  hwx0_4 : ∀ i : grid0.Coords, EltTy.bits .f32 = 32 ∨ (Rect.block (s := S16x4096x4096) S1x256x4096.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S_ : Shape := ⟨0, ![]⟩
abbrev S16x4096x4096 : Shape := ⟨3, ![16, 4096, 4096]⟩
abbrev S16x4096 : Shape := ⟨2, ![16, 4096]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x4096x4096, .f32⟩
  | .hbm, ⟨8, _⟩ => ⟨S16x4096x4096, .f32⟩
  | .hbm, ⟨9, _⟩ => ⟨S16x4096x4096, .f32⟩
  | .hbm, ⟨10, _⟩ => ⟨S_, .f32⟩
  | .hbm, ⟨11, _⟩ => ⟨S16x4096, .f32⟩
  | .hbm, ⟨12, _⟩ => ⟨S_, .f32⟩
  | .hbm, ⟨13, _⟩ => ⟨S16x4096, .f32⟩
  | .hbm, ⟨14, _⟩ => ⟨S16x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096, .f32⟩
  | .hbm, ⟨21, _⟩ => ⟨S16x4096x1, .f32⟩
  | .hbm, ⟨22, _⟩ => ⟨S16x4096x4096, .f32⟩
  | .hbm, ⟨23, _⟩ => ⟨S16x4096x4096, .f32⟩
  | .hbm, ⟨24, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.Softmax.lean ====
/-
  Scaled dot-product attention on the extended reals: the one function both programs are compared with, the constants
  they spell, and the law that joins their two spellings of the scores.

  For queries, keys and values `Q, K, V : [16, 4096, 64]` the score of query row `i` against key row `j` in batch `b` is
  `∑ d, (Q b i d · s) · K b j d` with `s = 1/8`; a row of scores goes through the softmax that subtracts the row's maximum
  (a fold of `max` started at −∞) before exponentiating and divides by the row's sum; the context is the softmax
  row times the value rows.  One program scales each query entry before the product, the other scales the finished
  product by `1/√64`: the two are equal because `√64 = 8` and because a finite non-negative factor moves across a sum of
  extended reals whatever the summands are (no finiteness of the inputs is used).
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-! ## The constants -/

/-- The scale `1/√64` as a float word: `0.125`. -/
def scale : EReal := Ideal.ofBits .f32 0x3E000000#32

theorem scale_eq : scale = ((1 / 8 : ℝ) : EReal) := by
  unfold scale
  simp [Ideal.ofBits, Ideal.ieee, -EReal.coe_mul]; norm_num

theorem scale_nonneg : (0 : EReal) ≤ scale := by
  rw [scale_eq]; exact_mod_cast (by norm_num : (0 : ℝ) ≤ 1 / 8)

theorem scale_ne_top : scale ≠ ⊤ := by
  rw [scale_eq]; exact EReal.coe_ne_top _

/-- The word a running maximum starts from denotes −∞. -/
theorem negInf_eq : Ideal.ofBits .f32 0xFF800000#32 = (⊥ : EReal) := by
  simp [Ideal.ofBits, Ideal.ieee]

theorem ofBits_64 : Ideal.ofBits .f32 0x42800000#32 = ((64 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- `1 / √64`, computed with the exact square root and the exact quotient, is the word `0.125`. -/
theorem one_div_sqrt_64 :
    Ideal.div (Ideal.ofBits .f32 0x3F800000#32) (Ideal.sqrt (Ideal.ofBits .f32 0x42800000#32)) = scale := by
  have h8 : Real.sqrt 64 = 8 := by
    rw [show (64 : ℝ) = 8 ^ 2 by norm_num]; exact Real.sqrt_sq (by norm_num)
  rw [ofBits_64, ofBits_one, scale_eq, Ideal.sqrt_coe, if_neg (by norm_num), h8,
    Ideal.div_coe (by norm_num : (8 : ℝ) ≠ 0), EReal.coe_one, one_mul]

/-! ## Moving the scale across the sum -/

/-- A finite non-negative factor distributes over any finite sum of extended reals. -/
theorem sum_mul_scale {ι : Type} (s : Finset ι) (f : ι → EReal) : (∑ d ∈ s, f d) * scale = ∑ d ∈ s, f d * scale := by
  classical
  induction s using Finset.induction_on with
  | empty => simp
  | insert a s ha ih =>
    rw [Finset.sum_insert ha, Finset.sum_insert ha, EReal.right_distrib_of_nonneg_of_ne_top scale_nonneg scale_ne_top, ih]

/-- Scaling the finished product is scaling each left entry first. -/
theorem dot_scale {n : ℕ} (a b : Fin n → EReal) : (∑ d : Fin n, a d * b d) * scale = ∑ d : Fin n, (a d * scale) * b d := by
  rw [sum_mul_scale]
  exact Finset.sum_congr rfl fun d _ => mul_right_comm _ _ _

/-! ## The specification -/

/-- The softmax of a row of scores at column `j`: the row's maximum (from −∞) subtracted, exponentiated, divided by the
    row's sum of such exponentials. -/
def softmaxRow {n : ℕ} (s : Fin n → EReal) (j : Fin n) : EReal :=
  Ideal.div (Ideal.exp (s j - (Finset.univ : Finset (Fin n)).fold max (Ideal.ofBits .f32 0xFF800000#32) s))
    (∑ k : Fin n, Ideal.exp (s k - (Finset.univ : Finset (Fin n)).fold max (Ideal.ofBits .f32 0xFF800000#32) s))

/-- The scaled score of query row `i` against key row `j` in batch `b`. -/
def scores (Q K : (⟨3, ![16, 4096, 64]⟩ : Shape).Idx → EReal) (b : Fin 16) (i j : Fin 4096) : EReal :=
  ∑ d : Fin 64, (Q (ix3 b i d) * scale) * K (ix3 b j d)

/-- The attention weight of key row `j` for query row `i` in batch `b`. -/
def attention (Q K : (⟨3, ![16, 4096, 64]⟩ : Shape).Idx → EReal) (b : Fin 16) (i j : Fin 4096) : EReal :=
  softmaxRow (fun j' => scores Q K b i j') j

/-- The context: the attention row times the value rows. -/
def context (Q K V : (⟨3, ![16, 4096, 64]⟩ : Shape).Idx → EReal) (b : Fin 16) (i : Fin 4096) (d : Fin 64) : EReal :=
  ∑ j : Fin 4096, attention Q K b i j * V (ix3 b j d)

/-- The attention weights as one array. -/
def attentionArr (Q K : (⟨3, ![16, 4096, 64]⟩ : Shape).Idx → EReal) : (⟨3, ![16, 4096, 4096]⟩ : Shape).Idx → EReal :=
  fun x => attention Q K (x 0) (x 1) (x 2)

/-- The context as one array. -/
def contextArr (Q K V : (⟨3, ![16, 4096, 64]⟩ : Shape).Idx → EReal) : (⟨3, ![16, 4096, 64]⟩ : Shape).Idx → EReal :=
  fun x => context Q K V (x 0) (x 1) (x 2)

end Cert.Attention

end
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibDenseRows.lean ====
/-
  A matrix product against a transposed right operand, read as rows times rows.

  A dot whose dimension numbers contract the columns of BOTH operands, with no batch axis, sends an `[n, K]` array and
  an `[h, K]` array to the `[n, h]` array whose entry `(e, q)` is the sum over `k` of `left (e, k) · right (q, k)` — the
  product with the right operand's transpose, as a score of row `e` against row `q`.  The dimension numbers enter only
  through four facts about where the dot reads its operands (`hl0`, `hl1`, `hr0`, `hr1`), which a given record of
  dimension numbers decides; at the exact extended-real values the kernel's product into a zero accumulator and the
  host's product are both that sum, whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(q, k)`. -/
theorem rowsDot_indices {n K h : Nat} (D : DotDims ⟨2, ![n, K]⟩ ⟨2, ![h, K]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (e : Fin n) (q : Fin h) (k : Fin K) :
    D.lhsIdx (ix2 e q) ((contrEquiv1 D K hr hs).symm k) = ix2 e k
    ∧ D.rhsIdx (ix2 e q) ((contrEquiv1 D K hr hs).symm k) = ix2 q k := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact hr0 _ _
    | ⟨1, _⟩ => exact (hr1 _ _).trans hk

/-- The kernel's product into the zero accumulator, at `(e, q)`: the sum over `k` of `a (e, k) · w (q, k)`. -/
theorem matmul_zero_rows_apply {n K h : Nat} {φ₁ φ₂ : FTy} (D : DotDims ⟨2, ![n, K]⟩ ⟨2, ![h, K]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (a : FVec Ideal ⟨2, ![n, K]⟩ φ₁) (w : FVec Ideal ⟨2, ![h, K]⟩ φ₂) (e : Fin n) (q : Fin h) :
    FloatOps.matmul D prec a w (constant ⟨2, ![n, h]⟩ .f32 0x00000000#32) (ix2 e q) = ∑ k : Fin K, a (ix2 e k) * w (ix2 q k) := by
  rw [Ideal.matmul_constant_zero_apply, ← Equiv.sum_comp (contrEquiv1 D K hr hs).symm]
  refine Finset.sum_congr rfl fun k _ => ?_
  obtain ⟨el, er⟩ := rowsDot_indices D hr hs hl0 hl1 hr0 hr1 e q k
  rw [el, er]

/-- The host's product, at `(e, q)`: the same sum. -/
theorem dotGeneral_rows_apply {n K h : Nat} {φ₁ φ₂ : FTy} (D : DotDims ⟨2, ![n, K]⟩ ⟨2, ![h, K]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (i 1).val)
    (hr1 : ∀ (i : (⟨2, ![n, h]⟩ : Shape).Idx) (k : D.contr.Idx), (D.rhsIdx i k 1).val = (k ⟨0, by omega⟩).val)
    (a : FVec Ideal ⟨2, ![n, K]⟩ φ₁) (w : FVec Ideal ⟨2, ![h, K]⟩ φ₂) (e : Fin n) (q : Fin h) :
    FloatOps.dotGeneral D prec sched a w (ix2 e q) = ∑ k : Fin K, a (ix2 e k) * w (ix2 q k) := by
  rw [Ideal.dotGeneral_apply, ← Equiv.sum_comp (contrEquiv1 D K hr hs).symm]
  refine Finset.sum_congr rfl fun k _ => ?_
  obtain ⟨el, er⟩ := rowsDot_indices D hr hs hl0 hl1 hr0 hr1 e q k
  rw [el, er]

end Idealize.ShloMosaic.ValueIdx
-- ==== Proof.KernelRow.lean ====
/-
  One grid point's arithmetic, read entry by entry at the exact extended-real values.

  At a grid point the body holds a `[1, 256, 64]` block of query rows, and the batch's whole `[1, 4096, 64]` blocks of key rows
  and of value rows.  Entry `(r, j)` of the `[256, 4096]` tile it divides out is the softmax, along the row `r`, of the scores
  `∑ d, (q r d · 1/8) · k j d`: the product into a zero accumulator is that sum (rounding the operands to a shorter format
  is the identity here), the row's maximum kept as a column is the fold of `max` from −∞ over the row, and the row's sum
  kept as a column the plain sum.  That tile is stored as it is, and its product with the value rows,
  `∑ j, tile r j · v j d`, is the second store.  If the blocks are rows of whole arrays `Q, K, V`, the two stores are the
  attention weights and the context of those arrays at the rows the blocks came from.
-/
import proofs.«122048_j51616916963548_2_alg».proof.Proof.Gen.KernelIdeal.Skeleton
import proofs.«122048_j51616916963548_2_alg».proof.Proof.Softmax
import proofs.«122048_j51616916963548_2_alg».proof.Proof.LibLastAxis
import proofs.«122048_j51616916963548_2_alg».proof.Proof.LibKeepdims
import proofs.«122048_j51616916963548_2_alg».proof.Proof.LibDense
import proofs.«122048_j51616916963548_2_alg».proof.Proof.LibDenseRows
import Idealize.ShloMosaic.Lib.ValueLayout
import Idealize.ShloMosaic.Lib.Pipeline.Value

noncomputable section

open scoped BigOperators

namespace Cert.KernelIdeal.Row

open Cert.KernelIdeal Cert.KernelIdeal.Gen Idealize.ShloMosaic Idealize.ShloMosaic.ValueIdx Cert.Attention

/-! ## Where the two products read their operands -/

theorem qk_l0 (i : S256x4096.Idx) (k : dot_S256x64_S4096x64_S256x4096_1_1_0_0_n_n.contr.Idx) :
    (dot_S256x64_S4096x64_S256x4096_1_1_0_0_n_n.lhsIdx i k 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem qk_l1 (i : S256x4096.Idx) (k : dot_S256x64_S4096x64_S256x4096_1_1_0_0_n_n.contr.Idx) :
    (dot_S256x64_S4096x64_S256x4096_1_1_0_0_n_n.lhsIdx i k 1).val = (k ⟨0, by decide⟩).val :=
  dot_S256x64_S4096x64_S256x4096_1_1_0_0_n_n.lhsIdx_val_of_single rfl i k
theorem qk_r0 (i : S256x4096.Idx) (k : dot_S256x64_S4096x64_S256x4096_1_1_0_0_n_n.contr.Idx) :
    (dot_S256x64_S4096x64_S256x4096_1_1_0_0_n_n.rhsIdx i k 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem qk_r1 (i : S256x4096.Idx) (k : dot_S256x64_S4096x64_S256x4096_1_1_0_0_n_n.contr.Idx) :
    (dot_S256x64_S4096x64_S256x4096_1_1_0_0_n_n.rhsIdx i k 1).val = (k ⟨0, by decide⟩).val :=
  dot_S256x64_S4096x64_S256x4096_1_1_0_0_n_n.rhsIdx_val_of_single rfl i k

theorem av_l0 (i : S256x64.Idx) (k : dot_S256x4096_S4096x64_S256x64_1_0_0_1_n_n.contr.Idx) :
    (dot_S256x4096_S4096x64_S256x64_1_0_0_1_n_n.lhsIdx i k 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem av_l1 (i : S256x64.Idx) (k : dot_S256x4096_S4096x64_S256x64_1_0_0_1_n_n.contr.Idx) :
    (dot_S256x4096_S4096x64_S256x64_1_0_0_1_n_n.lhsIdx i k 1).val = (k ⟨0, by decide⟩).val :=
  dot_S256x4096_S4096x64_S256x64_1_0_0_1_n_n.lhsIdx_val_of_single rfl i k
theorem av_r0 (i : S256x64.Idx) (k : dot_S256x4096_S4096x64_S256x64_1_0_0_1_n_n.contr.Idx) :
    (dot_S256x4096_S4096x64_S256x64_1_0_0_1_n_n.rhsIdx i k 0).val = (k ⟨0, by decide⟩).val :=
  dot_S256x4096_S4096x64_S256x64_1_0_0_1_n_n.rhsIdx_val_of_single rfl i k
theorem av_r1 (i : S256x64.Idx) (k : dot_S256x4096_S4096x64_S256x64_1_0_0_1_n_n.contr.Idx) :
    (dot_S256x4096_S4096x64_S256x64_1_0_0_1_n_n.rhsIdx i k 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-! ## A row statistic kept as a column -/

/-- The row maxima of a `[256, 4096]` tile, from −∞, repeated along every column. -/
def rowMaxCol (s : FVec Ideal S256x4096 .f32) : FVec Ideal S256x4096 .f32 :=
  broadcastTo S256x4096 (shapeCast S256x1 (multiReduction .maximumf [1] S256 s 0xFF800000#32 reduces_S256x4096_S256 (.inl rfl) rfl) shapeCasts_S256_S256x1) broadcasts_S256x1_S256x4096

/-- The row sums of a `[256, 4096]` tile repeated along every column. -/
def rowSumCol (p : FVec Ideal S256x4096 .f32) : FVec Ideal S256x4096 .f32 :=
  broadcastTo S256x4096 (shapeCast S256x1 (multiReduction .add [1] S256 p 0x00000000#32 reduces_S256x4096_S256 (.inl rfl) rfl) shapeCasts_S256_S256x1) broadcasts_S256x1_S256x4096

theorem rowMaxCol_apply (s : FVec Ideal S256x4096 .f32) (r : Fin 256) (j : Fin 4096) :
    rowMaxCol s (ix2 r j) = (Finset.univ : Finset (Fin 4096)).fold max (Ideal.ofBits .f32 0xFF800000#32) (fun k => s (ix2 r k)) := by
  unfold rowMaxCol
  rw [broadcastTo_a1_ab_apply, shapeCast_a_a1_apply, Cert.LibLastAxis.rowMax_apply]

theorem rowSumCol_apply (p : FVec Ideal S256x4096 .f32) (r : Fin 256) (j : Fin 4096) :
    rowSumCol p (ix2 r j) = ∑ k : Fin 4096, p (ix2 r k) := by
  unfold rowSumCol
  rw [broadcastTo_a1_ab_apply, shapeCast_a_a1_apply, Cert.LibLastAxis.rowSum_apply]

theorem expv_apply (x : FVec Ideal S256x4096 .f32) (i : S256x4096.Idx) : exp x i = Ideal.exp (x i) := rfl

/-- The tile's softmax along its rows, entry by entry. -/
theorem rowSoftmax_apply (s : FVec Ideal S256x4096 .f32) (r : Fin 256) (j : Fin 4096) :
    divf (exp (subf s (rowMaxCol s))) (rowSumCol (exp (subf s (rowMaxCol s)))) (ix2 r j) = softmaxRow (fun j' => s (ix2 r j')) j := by
  unfold softmaxRow
  rw [divf_apply, rowSumCol_apply]
  simp only [expv_apply, subf_apply, rowMaxCol_apply]

/-! ## The two stores -/

/-- The scores of the block's query row `r` against the block's key row `j`. -/
def blockScores (P0 : FVec Ideal S1x256x64 .f32) (P1 : FVec Ideal S1x4096x64 .f32) (r : Fin 256) (j : Fin 4096) : EReal :=
  ∑ d : Fin 64, (P0 (ix3 (0 : Fin 1) r d) * scale) * P1 (ix3 (0 : Fin 1) j d)

/-- The tile the body divides out, at `(r, j)`: the softmax of row `r`'s scores. -/
theorem pay1_apply (P0 : FVec Ideal S1x256x64 .f32) (P1 : FVec Ideal S1x4096x64 .f32) (r : Fin 256) (j : Fin 4096) :
    k0_pay1 (F := Ideal) P0 P1 (ix2 r j) = softmaxRow (fun j' => blockScores P0 P1 r j') j := by
  unfold k0_pay1
  refine (rowSoftmax_apply _ r j).trans ?_
  refine congrArg (fun f => softmaxRow f j) (funext fun j' => ?_)
  refine (matmul_zero_rows_apply dot_S256x64_S4096x64_S256x4096_1_1_0_0_n_n none rfl rfl qk_l0 qk_l1 qk_r0 qk_r1 _ _ r j').trans ?_
  unfold blockScores
  refine Finset.sum_congr rfl fun d _ => ?_
  rw [truncf_apply, truncf_apply, mulf_apply, broadcast_apply, shapeCast_1ab_ab_apply, shapeCast_1ab_ab_apply]
  rfl

/-- The first store is that tile under a leading unit axis. -/
theorem pay2_apply (P0 : FVec Ideal S1x256x64 .f32) (P1 : FVec Ideal S1x4096x64 .f32) (u : Fin 1) (r : Fin 256) (j : Fin 4096) :
    k0_pay2 (F := Ideal) P0 P1 (ix3 u r j) = k0_pay1 (F := Ideal) P0 P1 (ix2 r j) := by
  unfold k0_pay2
  exact shapeCast_ab_1ab_apply _ _ u r j

/-- The second store, at `(r, d)`: the tile's row `r` times the value rows' column `d`. -/
theorem pay3_apply (P0 : FVec Ideal S1x256x64 .f32) (P1 P2 : FVec Ideal S1x4096x64 .f32) (u : Fin 1) (r : Fin 256) (d : Fin 64) :
    k0_pay3 (F := Ideal) P0 P1 P2 (ix3 u r d) = ∑ j : Fin 4096, k0_pay1 (F := Ideal) P0 P1 (ix2 r j) * P2 (ix3 (0 : Fin 1) j d) := by
  unfold k0_pay3
  refine (shapeCast_ab_1ab_apply _ _ u r d).trans ?_
  refine (matmul_zero_plain_apply dot_S256x4096_S4096x64_S256x64_1_0_0_1_n_n none rfl rfl av_l0 av_l1 av_r0 av_r1 _ _ r d).trans ?_
  refine Finset.sum_congr rfl fun j _ => ?_
  rw [truncf_apply, truncf_apply, shapeCast_1ab_ab_apply]

/-! ## The stores of blocks that are rows of whole arrays -/

/-- If the query block's row `r` is row `i` of batch `b` of `Q` and the key block is batch `b` of `K`, the first store at
    `(r, j)` is the attention weight of key row `j` for query row `i`. -/
theorem attn_of_blocks (P0 : FVec Ideal S1x256x64 .f32) (P1 : FVec Ideal S1x4096x64 .f32)
    (Q K : S16x4096x64.Idx → EReal) (b : Fin 16) (i : Fin 4096) (u : Fin 1) (r : Fin 256) (j : Fin 4096)
    (hq : ∀ d : Fin 64, P0 (ix3 (0 : Fin 1) r d) = Q (ix3 b i d))
    (hk : ∀ (j' : Fin 4096) (d : Fin 64), P1 (ix3 (0 : Fin 1) j' d) = K (ix3 b j' d)) :
    k0_pay2 (F := Ideal) P0 P1 (ix3 u r j) = attention Q K b i j := by
  rw [pay2_apply, pay1_apply]
  unfold attention scores blockScores
  simp only [hq, hk]

/-- With the value block batch `b` of `V` as well, the second store at `(r, d)` is the context of query row `i`. -/
theorem ctx_of_blocks (P0 : FVec Ideal S1x256x64 .f32) (P1 P2 : FVec Ideal S1x4096x64 .f32)
    (Q K V : S16x4096x64.Idx → EReal) (b : Fin 16) (i : Fin 4096) (u : Fin 1) (r : Fin 256) (d : Fin 64)
    (hq : ∀ d : Fin 64, P0 (ix3 (0 : Fin 1) r d) = Q (ix3 b i d))
    (hk : ∀ (j' : Fin 4096) (d : Fin 64), P1 (ix3 (0 : Fin 1) j' d) = K (ix3 b j' d))
    (hv : ∀ (j' : Fin 4096) (d : Fin 64), P2 (ix3 (0 : Fin 1) j' d) = V (ix3 b j' d)) :
    k0_pay3 (F := Ideal) P0 P1 P2 (ix3 u r d) = context Q K V b i d := by
  rw [pay3_apply]
  unfold context
  refine Finset.sum_congr rfl fun j _ => ?_
  rw [hv, ← attn_of_blocks P0 P1 Q K b i (0 : Fin 1) r j hq hk, pay2_apply]

end Cert.KernelIdeal.Row

end
-- ==== Proof.KernelValue.lean ====
/-
  From grid points to whole arrays.

  The grid is 16 batches by 16 tiles of 256 query rows: point `t` is batch `t / 16`, tile `t % 16`.  There the query
  window's block is rows `(t % 16) · 256 … + 255` of batch `t / 16` of the queries, and the key and value windows' blocks are
  that batch's whole `[4096, 64]` slabs; the two output windows' blocks are the same rows of the same batch of the context
  and attention arrays.  So what point `t` writes back is block `t` of the specification's arrays of the argument arrays,
  every index of either output lies in the block of exactly the point `(batch, row / 256)`, and after the run the two
  outputs ARE the specification's context and attention of the arguments.
-/
import proofs.«122048_j51616916963548_2_alg».proof.Proof.Gen.KernelIdeal.Value
import proofs.«122048_j51616916963548_2_alg».proof.Proof.KernelRow
import Idealize.ShloMosaic.Lib.Pipeline.Value

set_option maxRecDepth 16384

noncomputable section

open scoped BigOperators

namespace Cert.KernelIdeal.Whole

open Cert.KernelIdeal Cert.KernelIdeal.Gen Cert.KernelIdeal.Value Cert.KernelIdeal.Row
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps over the grid -/

/-- The printed index maps, decided at every point: batch `t / 16` on axis 0 for every window, tile `t % 16` on axis 1
    for the query and the two output windows and `0` for the key and value windows, `0` on axis 2. -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = t.val % 16 ∧ win0_3.index t (2 : Fin 3) = 0)
    ∧ (win0_4.index t (0 : Fin 3) = t.val / 16 ∧ win0_4.index t (1 : Fin 3) = t.val % 16 ∧ win0_4.index t (2 : Fin 3) = 0) :=
  (by decide +kernel : ∀ t : Fin grid0.N, _)

/-! ## The input blocks as rows of the argument arrays -/

/-- The query block at point `t`: its row `r` is row `(t % 16) · 256 + r` of batch `t / 16`. -/
theorem iblk0_apply (c : Dev nD) (t : Fin cfg0.N) (r : Fin 256) (d : Fin 64) (b : Fin 16) (i : Fin 4096)
    (hb : b.val = t.val / 16) (hi : i.val = t.val % 16 * 256 + r.val) :
    (iblk m c 0 t : FVec Ideal S1x256x64 .f32) (ix3 (0 : Fin 1) r d) = (V m c main_arg0 : S16x4096x64.Idx → EReal) (ix3 b i d) := by
  obtain ⟨⟨e0, e1, e2⟩, -⟩ := idx_facts t
  unfold iblk
  rw [View.read_apply]
  show (V m c main_arg0 : S16x4096x64.Idx → EReal) _ = (V m c main_arg0 : S16x4096x64.Idx → EReal) _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = i.val; omega
  | ⟨2, _⟩ => show win0_0.index t (2 : Fin 3) * 64 + 1 * d.val = d.val; omega

/-- The key block at point `t` is batch `t / 16` of the keys, whole. -/
theorem iblk1_apply (c : Dev nD) (t : Fin cfg0.N) (j : Fin 4096) (d : Fin 64) (b : Fin 16) (hb : b.val = t.val / 16) :
    (iblk m c 1 t : FVec Ideal S1x4096x64 .f32) (ix3 (0 : Fin 1) j d) = (V m c main_arg1 : S16x4096x64.Idx → EReal) (ix3 b j d) := by
  obtain ⟨-, ⟨e0, e1, e2⟩, -⟩ := idx_facts t
  unfold iblk
  rw [View.read_apply]
  show (V m c main_arg1 : S16x4096x64.Idx → EReal) _ = (V m c main_arg1 : S16x4096x64.Idx → EReal) _
  congr 1
  funext a
  apply Fin.ext
  match a with
  | ⟨0, _⟩ => show win0_1.index t (0 : Fin 3) * 1 + 1 * 0 = b.val; omega
  | ⟨1, _⟩ => show win0_1.index t (1 : Fin 3) * 4096 + 1 * j.val = j.val; omega
  | ⟨2, _⟩ => show win0_1.index t (2 : Fin 3) * 64 + 1 * d.val = d.val; omega

/-- The value block at point `t` is batch `t / 16` of the values, whole. -/
theorem iblk2_apply (c : Dev nD) (t : Fin cfg0.N) (j : Fin 4096) (d : Fin 64) (b : Fin 16) (hb : b.val = t.val / 16) :
    (iblk m c 2 t : FVec Ideal S1x4096x64 .f32) (ix3 (0 : Fin 1) j d) = (V m c main_arg2 : S16x4096x64.Idx → EReal) (ix3 b j d) := by
  obtain ⟨-, -, ⟨e0, e1, e2⟩, -⟩ := idx_facts t
  unfold iblk
  rw [View.read_apply]
  show (V m c main_arg2 : S16x4096x64.Idx → EReal) _ = (V m c main_arg2 : S16x4096x64.Idx → EReal) _
  congr 1
  funext a
  apply Fin.ext
  match a with
  | ⟨0, _⟩ => show win0_2.index t (0 : Fin 3) * 1 + 1 * 0 = b.val; omega
  | ⟨1, _⟩ => show win0_2.index t (1 : Fin 3) * 4096 + 1 * j.val = j.val; omega
  | ⟨2, _⟩ => show win0_2.index t (2 : Fin 3) * 64 + 1 * d.val = d.val; omega

/-! ## What each point writes back -/

/-- Point `t` writes block `t` of the attention weights of the argument arrays. -/
theorem flushed4_eq (c : Dev nD) (t : Fin cfg0.N) :
    (dats m 0 c).flushed 4 t = ((cfg0.win 4).blk t).view.read (Elt Ideal) (attentionArr (V m c main_arg0) (V m c main_arg1)) := by
  rw [Value.flushed4]
  unfold out0_4
  rw [View.canon_unit_zero hz]
  simp only [View.ld_unit_zero (S := S1x256x64) hz, View.ld_unit_zero (S := S1x4096x64) hz]
  obtain ⟨-, -, -, -, ⟨e0, e1, e2⟩⟩ := idx_facts t
  funext y
  obtain ⟨u, r, j, rfl⟩ : ∃ (u : Fin 1) (r : Fin 256) (j : Fin 4096), y = ix3 u r j := ⟨y 0, y 1, y 2, eq_ix3 y⟩
  have hu : u.val = 0 := by omega
  show k0_pay2 (F := Ideal) (iblk m c 0 t) (iblk m c 1 t) (ix3 u r j)
    = attentionArr (V m c main_arg0) (V m c main_arg1) (((cfg0.win 4).blk t).view.emb (ix3 u r j))
  have x0 : ((((cfg0.win 4).blk t).view.emb (ix3 u r j) : S16x4096x4096.Idx) 0).val = t.val / 16 := by
    show win0_4.index t (0 : Fin 3) * 1 + 1 * u.val = _; omega
  have x1 : ((((cfg0.win 4).blk t).view.emb (ix3 u r j) : S16x4096x4096.Idx) 1).val = t.val % 16 * 256 + r.val := by
    show win0_4.index t (1 : Fin 3) * 256 + 1 * r.val = _; omega
  have x2 : j = (((cfg0.win 4).blk t).view.emb (ix3 u r j) : S16x4096x4096.Idx) 2 := by
    apply Fin.ext
    show j.val = win0_4.index t (2 : Fin 3) * 4096 + 1 * j.val; omega
  refine (attn_of_blocks (iblk m c 0 t) (iblk m c 1 t) (V m c main_arg0) (V m c main_arg1)
    ((((cfg0.win 4).blk t).view.emb (ix3 u r j) : S16x4096x4096.Idx) 0) ((((cfg0.win 4).blk t).view.emb (ix3 u r j) : S16x4096x4096.Idx) 1) u r j
    (fun d => iblk0_apply m c t r d _ _ x0 x1) (fun j' d => iblk1_apply m c t j' d _ x0)).trans ?_
  unfold attentionArr
  exact congrArg (attention (V m c main_arg0) (V m c main_arg1) _ _) x2

/-- Point `t` writes block `t` of the context of the argument arrays. -/
theorem flushed3_eq (c : Dev nD) (t : Fin cfg0.N) :
    (dats m 0 c).flushed 3 t = ((cfg0.win 3).blk t).view.read (Elt Ideal) (contextArr (V m c main_arg0) (V m c main_arg1) (V m c main_arg2)) := by
  rw [Value.flushed3]
  unfold out0_3
  rw [View.canon_unit_zero hz]
  simp only [View.ld_unit_zero (S := S1x256x64) hz, View.ld_unit_zero (S := S1x4096x64) hz]
  obtain ⟨-, -, -, ⟨e0, e1, e2⟩, -⟩ := idx_facts t
  funext y
  obtain ⟨u, r, d, rfl⟩ : ∃ (u : Fin 1) (r : Fin 256) (d : Fin 64), y = ix3 u r d := ⟨y 0, y 1, y 2, eq_ix3 y⟩
  have hu : u.val = 0 := by omega
  show k0_pay3 (F := Ideal) (iblk m c 0 t) (iblk m c 1 t) (iblk m c 2 t) (ix3 u r d)
    = contextArr (V m c main_arg0) (V m c main_arg1) (V m c main_arg2) (((cfg0.win 3).blk t).view.emb (ix3 u r d))
  have x0 : ((((cfg0.win 3).blk t).view.emb (ix3 u r d) : S16x4096x64.Idx) 0).val = t.val / 16 := by
    show win0_3.index t (0 : Fin 3) * 1 + 1 * u.val = _; omega
  have x1 : ((((cfg0.win 3).blk t).view.emb (ix3 u r d) : S16x4096x64.Idx) 1).val = t.val % 16 * 256 + r.val := by
    show win0_3.index t (1 : Fin 3) * 256 + 1 * r.val = _; omega
  have x2 : d = (((cfg0.win 3).blk t).view.emb (ix3 u r d) : S16x4096x64.Idx) 2 := by
    apply Fin.ext
    show d.val = win0_3.index t (2 : Fin 3) * 64 + 1 * d.val; omega
  refine (ctx_of_blocks (iblk m c 0 t) (iblk m c 1 t) (iblk m c 2 t) (V m c main_arg0) (V m c main_arg1) (V m c main_arg2)
    ((((cfg0.win 3).blk t).view.emb (ix3 u r d) : S16x4096x64.Idx) 0) ((((cfg0.win 3).blk t).view.emb (ix3 u r d) : S16x4096x64.Idx) 1) u r d
    (fun d' => iblk0_apply m c t r d' _ _ x0 x1) (fun j' d' => iblk1_apply m c t j' d' _ x0) (fun j' d' => iblk2_apply m c t j' d' _ x0)).trans ?_
  unfold contextArr
  exact congrArg (context (V m c main_arg0) (V m c main_arg1) (V m c main_arg2) _ _) x2

/-! ## The blocks cover the outputs -/

theorem mem_blk4 (t : Fin cfg0.N) (i : S16x4096x4096.Idx) :
    i ∈ ((cfg0.win 4).blk t).view.set ↔ ∀ a : Fin 3, win0_4.index t a * S1x256x4096.size a ≤ (i a).val ∧ (i a).val < win0_4.index t a * S1x256x4096.size a + S1x256x4096.size a := by
  show i ∈ ((View.whole main_v0_1).slice (win0_4.rect t)).set ↔ _
  rw [View.set_slice_whole, Rect.mem_set_unit]
  exact Iff.rfl

theorem mem_blk3 (t : Fin cfg0.N) (i : S16x4096x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v0_0).slice (win0_3.rect t)).set ↔ _
  rw [View.set_slice_whole, Rect.mem_set_unit]
  exact Iff.rfl

/-- Entry `(b, i, j)` of the attention array is in the block of the point `16 b + i / 256`. -/
theorem cover4 (i : S16x4096x4096.Idx) : ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 4096 := (i 2).isLt
  have hN : cfg0.N = 256 := N_0
  obtain ⟨t, tv⟩ : ∃ t : Fin cfg0.N, t.val = (i 0).val * 16 + (i 1).val / 256 := ⟨⟨(i 0).val * 16 + (i 1).val / 256, by rw [hN]; omega⟩, rfl⟩
  obtain ⟨-, -, -, -, ⟨e0, e1, e2⟩⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

/-- Entry `(b, i, d)` of the context array is in the block of the point `16 b + i / 256`. -/
theorem cover3 (i : S16x4096x64.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 64 := (i 2).isLt
  have hN : cfg0.N = 256 := N_0
  obtain ⟨t, tv⟩ : ∃ t : Fin cfg0.N, t.val = (i 0).val * 16 + (i 1).val / 256 := ⟨⟨(i 0).val * 16 + (i 1).val / 256, by rw [hN]; omega⟩, rfl⟩
  obtain ⟨-, -, -, ⟨e0, e1, e2⟩, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-! ## The arrays after the run -/

theorem final4 (c : Dev nD) : (dats m 0 c).arrAt 4 cfg0.N = attentionArr (V m c main_arg0) (V m c main_arg1) :=
  (dats m 0 c).arrAt_eq_of_cover 4 (attentionArr (V m c main_arg0) (V m c main_arg1)) (fun t _ => flushed4_eq m c t) cover4

theorem final3 (c : Dev nD) : (dats m 0 c).arrAt 3 cfg0.N = contextArr (V m c main_arg0) (V m c main_arg1) (V m c main_arg2) :=
  (dats m 0 c).arrAt_eq_of_cover 3 (contextArr (V m c main_arg0) (V m c main_arg1) (V m c main_arg2)) (fun t _ => flushed3_eq m c t) cover3

/-- The run, read: the two outputs end at the context and the attention weights of the arguments, the arguments unchanged. -/
theorem run : θ_run defs (onTc (τ := τ) (main (F := Ideal))) ⟨m, fun _ => 0, ρ⟩ fun r => ∀ c : Dev nD,
      r.2.mem ((c : Thread nD τ).loc main_v0_0) = contextArr (m ((c : Thread nD τ).loc main_arg0)) (m ((c : Thread nD τ).loc main_arg1)) (m ((c : Thread nD τ).loc main_arg2))
      ∧ r.2.mem ((c : Thread nD τ).loc main_v0_1) = attentionArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.RefValue.lean ====
/-
  The reference, stage by stage, is the specification.

  Its scores are the plain products `∑ d, Q b i d · K b j d` scaled afterwards by `1/√64`: the exact square root of 64 is 8,
  so the factor is the word `0.125`, and a finite non-negative factor moves across the sum onto each query entry.  Its
  row maximum is the fold of `max` from −∞ over the row, joined once more with −∞ (which changes nothing: −∞ is the least
  extended real); its row sum starts from the word of zero (which adds nothing).  The quotient and the product with
  the value rows are then the specification's, term for term.
-/
import proofs.«122048_j51616916963548_2_alg».proof.Proof.Gen.ReferenceIdeal.Read
import proofs.«122048_j51616916963548_2_alg».proof.Proof.Softmax
import proofs.«122048_j51616916963548_2_alg».proof.Proof.LibLastAxis

noncomputable section

open scoped BigOperators

namespace Cert.ReferenceIdeal.RefValue

open Cert.ReferenceIdeal Cert.ReferenceIdeal.Gen Cert.ReferenceIdeal.Read Idealize.ShloMosaic Idealize.ShloMosaic.ValueIdx Cert.Attention

/-! ## Where each stage reads its operand -/

theorem lidx2 (b : Fin 16) (i j : Fin 4096) (k : Fin 64) : lidx_main_v2 (ix3 b i j) k = ix3 b i k :=
  funext fun a => Fin.ext (by match a with | ⟨0, _⟩ => rfl | ⟨1, _⟩ => rfl | ⟨2, _⟩ => rfl)
theorem ridx2 (b : Fin 16) (i j : Fin 4096) (k : Fin 64) : ridx_main_v2 (ix3 b i j) k = ix3 b j k :=
  funext fun a => Fin.ext (by match a with | ⟨0, _⟩ => rfl | ⟨1, _⟩ => rfl | ⟨2, _⟩ => rfl)
theorem idx9 (b : Fin 16) (i j : Fin 4096) : idx_main_v9 (ix3 b i j) = ix3 b i (0 : Fin 1) :=
  funext fun a => Fin.ext (by match a with | ⟨0, _⟩ => rfl | ⟨1, _⟩ => rfl | ⟨2, _⟩ => rfl)
theorem idx8 (b : Fin 16) (i : Fin 4096) (u : Fin 1) : idx_main_v8 (ix3 b i u) = ix2 b i :=
  funext fun a => Fin.ext (by match a with | ⟨0, _⟩ => rfl | ⟨1, _⟩ => rfl)
theorem idx12 (b : Fin 16) (i : Fin 4096) (k : Fin 4096) : idx_main_v12 (ix2 b i) k = ix3 b i k :=
  funext fun a => Fin.ext (by match a with | ⟨0, _⟩ => rfl | ⟨1, _⟩ => rfl | ⟨2, _⟩ => rfl)
theorem idx14 (b : Fin 16) (i j : Fin 4096) : idx_main_v14 (ix3 b i j) = ix3 b i (0 : Fin 1) :=
  funext fun a => Fin.ext (by match a with | ⟨0, _⟩ => rfl | ⟨1, _⟩ => rfl | ⟨2, _⟩ => rfl)
theorem idx13 (b : Fin 16) (i : Fin 4096) (u : Fin 1) : idx_main_v13 (ix3 b i u) = ix2 b i :=
  funext fun a => Fin.ext (by match a with | ⟨0, _⟩ => rfl | ⟨1, _⟩ => rfl)
theorem lidx16 (b : Fin 16) (i : Fin 4096) (d : Fin 64) (k : Fin 4096) : lidx_main_v16 (ix3 b i d) k = ix3 b i k :=
  funext fun a => Fin.ext (by match a with | ⟨0, _⟩ => rfl | ⟨1, _⟩ => rfl | ⟨2, _⟩ => rfl)
theorem ridx16 (b : Fin 16) (i : Fin 4096) (d : Fin 64) (k : Fin 4096) : ridx_main_v16 (ix3 b i d) k = ix3 b k d :=
  funext fun a => Fin.ext (by match a with | ⟨0, _⟩ => rfl | ⟨1, _⟩ => rfl | ⟨2, _⟩ => rfl)

/-! ## The stages -/

variable (x0 x1 x2 : FVec Ideal S16x4096x64 .f32)

/-- The reference's scale `1 / √64` is the word `0.125`. -/
theorem v1_apply (i : S_.Idx) : val_main_v1 (F := Ideal) i = scale := by
  rw [val_main_v1_apply, val_main_cst_0_apply, val_main_v0_apply, val_main_cst_apply]
  exact one_div_sqrt_64

/-- The scaled product is the specification's score. -/
theorem v4_apply (b : Fin 16) (i j : Fin 4096) : val_main_v4 (F := Ideal) x0 x1 (ix3 b i j) = scores x0 x1 b i j := by
  rw [val_main_v4_apply, val_main_v2_apply, val_main_v3_apply, v1_apply]
  simp only [lidx2, ridx2]
  exact dot_scale (fun d => x0 (ix3 b i d)) (fun d => x1 (ix3 b j d))

/-- The row maximum. -/
theorem v7_apply (b : Fin 16) (i : Fin 4096) :
    val_main_v7 (F := Ideal) x0 x1 (ix2 b i)
      = (Finset.univ : Finset (Fin 4096)).fold max (Ideal.ofBits .f32 0xFF800000#32) (fun k => scores x0 x1 b i k) := by
  rw [val_main_v7_apply, val_main_v6_apply, val_main_cst_2_apply]
  unfold val_main_v5
  rw [Cert.LibLastAxis.hostMax_last3_apply (val_main_v4 (F := Ideal) x0 x1) (val_main_cst_1 (F := Ideal))
    reducesTo_S16x4096x4096_S16x4096_d2 (by decide) h_S_ b i, val_main_cst_1_apply]
  simp only [v4_apply]
  show max (Ideal.ofBits .f32 0xFF800000#32) _ = _
  rw [negInf_eq]
  exact max_bot_left _

/-- The exponential of a score less its row's maximum. -/
theorem v11_apply (b : Fin 16) (i j : Fin 4096) :
    val_main_v11 (F := Ideal) x0 x1 (ix3 b i j)
      = Ideal.exp (scores x0 x1 b i j - (Finset.univ : Finset (Fin 4096)).fold max (Ideal.ofBits .f32 0xFF800000#32) (fun k => scores x0 x1 b i k)) := by
  rw [val_main_v11_apply, val_main_v10_apply, val_main_v9_apply, idx9, val_main_v8_apply, idx8, v7_apply, v4_apply]
  rfl

/-- The row sum of those exponentials. -/
theorem v12_apply (b : Fin 16) (i : Fin 4096) :
    val_main_v12 (F := Ideal) x0 x1 (ix2 b i)
      = ∑ k : Fin 4096, Ideal.exp (scores x0 x1 b i k - (Finset.univ : Finset (Fin 4096)).fold max (Ideal.ofBits .f32 0xFF800000#32) (fun k' => scores x0 x1 b i k')) := by
  rw [val_main_v12_apply, val_main_cst_3_apply]
  simp only [idx12, v11_apply]
  show Ideal.ofBits .f32 0x00000000#32 + _ = _
  rw [Ideal.ofBits_zero_f32, zero_add]

/-- The attention weight. -/
theorem v15_apply (b : Fin 16) (i j : Fin 4096) : val_main_v15 (F := Ideal) x0 x1 (ix3 b i j) = attention x0 x1 b i j := by
  rw [val_main_v15_apply, val_main_v14_apply, idx14, val_main_v13_apply, idx13, v12_apply, v11_apply]
  rfl

/-- The context. -/
theorem v16_apply (b : Fin 16) (i : Fin 4096) (d : Fin 64) : val_main_v16 (F := Ideal) x0 x1 x2 (ix3 b i d) = context x0 x1 x2 b i d := by
  rw [val_main_v16_apply]
  unfold context
  simp only [lidx16, ridx16, v15_apply]

/-! ## The two results as whole arrays -/

theorem attention_eq : val_main_v15 (F := Ideal) x0 x1 = attentionArr x0 x1 := by
  funext x
  obtain ⟨b, i, j, rfl⟩ : ∃ (b : Fin 16) (i j : Fin 4096), x = ix3 b i j := ⟨x 0, x 1, x 2, eq_ix3 x⟩
  exact v15_apply x0 x1 b i j

theorem context_eq : val_main_v16 (F := Ideal) x0 x1 x2 = contextArr x0 x1 x2 := by
  funext x
  obtain ⟨b, i, d, rfl⟩ : ∃ (b : Fin 16) (i : Fin 4096) (d : Fin 64), x = ix3 b i d := ⟨x 0, x 1, x 2, eq_ix3 x⟩
  exact v16_apply x0 x1 x2 b i d

end Cert.ReferenceIdeal.RefValue

end
-- ==== Proof.lean ====
/-
  Naive scaled dot-product attention over `q, k, v : f32[16, 4096, 64]`: the kernel, tiled 256 query rows at a time, against
  `softmax((q kᵀ) / √64) v` written with whole-array operations.

  At the exact extended-real values both compute, for every batch `b` and query row `i`, the scores
  `s j = ∑ d, q b i d · k b j d / 8`, the weights `exp (s j − max s) / ∑ j', exp (s j' − max s)` and the context
  `∑ j, weight j · v b j d`, with the maximum a fold of `max` from −∞ and every sum in one fixed order on both sides.  They
  differ in three places, none of which changes a value: the kernel multiplies each query entry by the word `0.125`
  before the product while the reference multiplies the finished product by `1 / √64` (the exact root of 64 is 8, and a
  finite non-negative factor distributes over a sum of extended reals — no finiteness of the inputs is needed); the
  reference joins its row maximum once more with −∞, the least extended real; and its row sum starts from the word of
  zero.  Rounding the product operands to a shorter format is the identity at these values.

  The kernel's two output arrays, block by block over the 16 × 16 grid, are the specification's arrays of the arguments
  (`KernelValue`, over the per-point arithmetic of `KernelRow`); the reference's two results, stage by stage, are the same
  arrays (`RefValue`); the specification and the scale law are `Softmax`.  The three frames are the generated frame runs, and
  the idealization rewrote nothing, so there is nothing to preserve.
-/
import proofs.«122048_j51616916963548_2_alg».proof.Defs
import proofs.«122048_j51616916963548_2_alg».proof.Proof.Gen.Kernel
import proofs.«122048_j51616916963548_2_alg».proof.Proof.Gen.Kernel.Skeleton
import proofs.«122048_j51616916963548_2_alg».proof.Proof.Gen.Kernel.Launch
import proofs.«122048_j51616916963548_2_alg».proof.Proof.Gen.Kernel.Points
import proofs.«122048_j51616916963548_2_alg».proof.Proof.Gen.Kernel.Frame
import proofs.«122048_j51616916963548_2_alg».proof.Proof.Gen.KernelIdeal
import proofs.«122048_j51616916963548_2_alg».proof.Proof.Gen.KernelIdeal.Skeleton
import proofs.«122048_j51616916963548_2_alg».proof.Proof.Gen.KernelIdeal.Launch
import proofs.«122048_j51616916963548_2_alg».proof.Proof.Gen.KernelIdeal.Points
import proofs.«122048_j51616916963548_2_alg».proof.Proof.Gen.KernelIdeal.Frame
import proofs.«122048_j51616916963548_2_alg».proof.Proof.Gen.ReferenceIdeal
import proofs.«122048_j51616916963548_2_alg».proof.Proof.Gen.Pre_finite_inputs
import proofs.«122048_j51616916963548_2_alg».proof.Proof.Gen.KernelIdeal.Value
import proofs.«122048_j51616916963548_2_alg».proof.Proof.Gen.ReferenceIdeal.Run
import proofs.«122048_j51616916963548_2_alg».proof.Proof.Gen.ReferenceIdeal.Read
import proofs.«122048_j51616916963548_2_alg».proof.Proof.KernelValue
import proofs.«122048_j51616916963548_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on `q, k, v` both programs end with the context and the attention weights of those arrays. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v16_eq _ _ _).trans ?_)
    rw [Cert.ReferenceIdeal.RefValue.context_eq, (hagree c).1, (hagree c).2.1, (hagree c).2.2]
  · refine (h c).2.1.trans ((Cert.ReferenceIdeal.Read.val_main_v15_eq _ _).trans ?_)
    rw [Cert.ReferenceIdeal.RefValue.attention_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
